-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S10000x256 .f32) (main_arg1 : IVec S2x320000 32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S2000x256 : Shape := ⟨2, ![2000, 256]⟩
abbrev S320000x1 : Shape := ⟨2, ![320000, 1]⟩
abbrev S320000x256 : Shape := ⟨2, ![320000, 256]⟩
abbrev S1x256 : Shape := ⟨2, ![1, 256]⟩

abbrev nBuf : Space → Nat
  | .hbm => 47
  | .vmem => 5
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S1x320000, .i32⟩
  | .hbm, ⟨15, _⟩ => ⟨S320000, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S10000x256, .f32⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000x256, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x256, .f32⟩
  | .hbm, ⟨43, _⟩ => ⟨S320000x256, .f32⟩
  | .hbm, ⟨44, _⟩ => ⟨S1x256, .f32⟩
  | .hbm, ⟨45, _⟩ => ⟨S320000x256, .f32⟩
  | .hbm, ⟨46, _⟩ => ⟨S320000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_v7 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_c_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  slices_S2x320000_S1x320000_1_0 : S2x320000.Slices ![1, 0] S1x320000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  dot_S2000x256_S256x256_S2000x256_1_0_0_1_n_n_wf : DotDims.WF S2000x256 S256x256 S2000x256 [1] [0] [0] [1] [] []
  gather_S10000x256_S320000x1_S320000x256_1_0_n_n_0_1_1256_wf : GatherDims.WF S10000x256 S320000x1 S320000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .f32 = 32 ∨ (Rect.block (s := S10000x256) S2000x256.size (cc0_transform_2 i) (hinb0_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S1x320000, .i32⟩
  | .hbm, ⟨15, _⟩ => ⟨S320000, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x256, .f32⟩
  | .hbm, ⟨42, _⟩ => ⟨S320000x256, .f32⟩
  | .hbm, ⟨43, _⟩ => ⟨S320000x256, .f32⟩
  | .hbm, ⟨44, _⟩ => ⟨S1x256, .f32⟩
  | .hbm, ⟨45, _⟩ => ⟨S320000x256, .f32⟩
  | .hbm, ⟨46, _⟩ => ⟨S320000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_c_3 : Ref sig .tc := ⟨.hbm, 24, rfl⟩
abbrev main_v6 : Ref sig .tc := ⟨.hbm, 25, rfl⟩
abbrev main_v7 : Ref sig .tc := ⟨.hbm, 26, rfl⟩
abbrev main_c_4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_5 : Ref sig .tc := ⟨.hbm, 33, rfl⟩
abbrev main_v13 : Ref sig .tc := ⟨.hbm, 34, rfl⟩
abbrev main_v14 : Ref sig .tc := ⟨.hbm, 35, rfl⟩
abbrev main_c_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  slices_S2x320000_S1x320000_1_0 : S2x320000.Slices ![1, 0] S1x320000
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  gather_S10000x256_S320000x1_S320000x256_1_0_n_n_0_1_1256_wf : GatherDims.WF S10000x256 S320000x1 S320000x256 [1] [0] [] [0] [] 1 ![1, 256]
  dot_S320000x256_S256x256_S320000x256_1_0_0_1_n_n_wf : DotDims.WF S320000x256 S256x256 S320000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf

class Facts : Prop extends Facts₀ where

variable [Facts]
-- ==== Proof.HostTail.lean ====
/-
  The host operations after the region, as ONE function. After the projection `y = x · W` is in its buffer, the
  program normalises the two clipped index vectors (a negative index has the table's length 10000 added; after the clip
  none is negative), reshapes each to a column, gathers the rows of `y` they name, adds the two gathered arrays, and adds
  the bias broadcast along the edges. `tail y i₀ i₁ b` is that composite, and the result buffer after the whole run
  holds it, evaluated at what the region and the earlier host operations left in the four buffers it reads.
  Before the region, each index vector is one row of `edge_index`, flattened and clipped into `[0, 9999]`
  (`clipRow`): the larger of 0 and the index, then the smaller of 9999 and that.
-/
import proofs.«159090_j75668733821114_2_alg».proof.Proof.Gen.KernelIdeal.Frame
import Idealize.ShloMosaic.Lib.StableHlo.Run
import Idealize.ShloMosaic.PureOps.Ideal

set_option maxRecDepth 16384

noncomputable section

namespace Cert.KernelIdeal.HostTail

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ)

/-- A clipped index vector as the gather wants it: negatives wrapped by the table's length, then a column. -/
def column (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10000#32))) i)

/-- The host operations after the region: `y[i₀] + y[i₁] + b`, rows gathered, the bias along the edges. -/
def tail (y : FVec Ideal S10000x256 .f32) (i0 i1 : IVec S320000 32) (b : FVec Ideal S256 .f32) :
    FVec Ideal S320000x256 .f32 :=
  addf
    (addf (Host.gather gather_S10000x256_S320000x1_S320000x256_1_0_n_n_0_1_1256 y (column i0))
      (Host.gather gather_S10000x256_S320000x1_S320000x256_1_0_n_n_0_1_1256 y (column i1)))
    (broadcastInDim S320000x256 ![0, 1] bcast_S1x256_S320000x256_0_1 (broadcastInDim S1x256 ![1] bcast_S256_S1x256_1 b))

/-- Row `s` of `edge_index` (a slice at row offset given by `off`), flattened and clipped into `[0, 9999]`. -/
def clipRow (off : Fin 2 → Nat) (hs : S2x320000.Slices off S1x320000) (ei : IVec S2x320000 32) : IVec S320000 32 :=
  minsi (broadcastInDim S320000 ![] bcast_S_S320000 (id (constantI S_ 32 9999#32)))
    (maxsi (broadcastInDim S320000 ![] bcast_S_S320000 (id (constantI S_ 32 0#32)))
      (shapeCast _ (extractStridedSlice S1x320000 off ei hs) shapeCasts_S1x320000_S320000))

/-- Core `c`'s buffers when the region is left: its arrays as the run left them, every other buffer as it was at
    the region's entry. -/
abbrev exitVal (c : Dev nD) : Valuation τ sig (Elt Ideal) :=
  Pipeline.withArrays (cfgs 0).spec c (V0 m c) (fun w => (dats m 0 c).arrAt w (cfgs 0).N)

set_option maxHeartbeats 1000000 in
/-- THE RESULT BUFFER after the lines that follow the region: `tail` of the four buffers those lines read. -/
theorem tail_v24 (c : Dev nD) :
    Pipeline.afterTail₀ cfgs (dats m) 0 (V0 m) [hostOps1] c main_v24
      = tail (exitVal m c (Proc.devRef .tc main_v6)) (exitVal m c (Proc.devRef .tc main_v2))
          (exitVal m c (Proc.devRef .tc main_v5)) (exitVal m c (Proc.devRef .tc main_arg3)) := by
  unfold Pipeline.afterTail₀
  simp only [hostOps1, List.flatten_cons, List.flatten_nil, List.append_nil]
  after_results
  rfl

end Cert.KernelIdeal.HostTail

end
-- ==== Proof.BlockProduct.lean ====
/-
  What one grid point of the projection kernel computes. The body loads its block of `x` (2000 rows by 256) and the
  whole of `W` (256 by 256), changes both to bf16 (the identity on extended reals) and multiplies them on the matrix
  unit into a zero accumulator. Read at row `p` and column `q` of the block, the stored value is the inner product of
  row `p` of the `x` block with column `q` of `W`: a sum over the 256 contracted positions.
-/
import proofs.«159090_j75668733821114_2_alg».proof.Proof.Gen.KernelIdeal.Skeleton
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand's index of the matrix unit's product at output index `i` and contracted position `q`: row of
    `i`, … -/
theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
/-- … column the contracted position. -/
theorem lhs_col (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's index: row the contracted position, … -/
theorem rhs_row (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … column of `i`. -/
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- THE BODY'S STORED VALUE AT `(p, q)`: the inner product of row `p` of the `x` block with column `q` of `W`. -/
theorem payload_apply (x0 : Vec Ideal S2000x256 .f32) (x1 : Vec Ideal S256x256 .f32) (p : Fin 2000) (q : Fin 256) :
    k0_pay1 (F := Ideal) x0 x1 (ix2 p q) = ∑ k : Fin 256, x0 (ix2 p k) * x1 (ix2 k q) := by
  unfold k0_pay1
  refine (Ideal.matmul_constant_zero_apply dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact lhs_row _ _
      | ⟨1, _⟩ => exact (lhs_col _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (rhs_row _ _).trans hk
      | ⟨1, _⟩ => exact rhs_col _ _)
  rw [el, er]
  rfl

/-- The same at any index `y` of the block, by its coordinates. -/
theorem payload_at (x0 : Vec Ideal S2000x256 .f32) (x1 : Vec Ideal S256x256 .f32) (y : S2000x256.Idx) :
    k0_pay1 (F := Ideal) x0 x1 y
      = ∑ k : Fin 256, x0 (ix2 (n0 := 2000) (n1 := 256) (y 0) k) * x1 (ix2 (n0 := 256) (n1 := 256) k (y 1)) := by
  obtain ⟨p, q, rfl⟩ : ∃ (p : Fin 2000) (q : Fin 256), y = ix2 p q := ⟨y 0, y 1, eq_ix2 y⟩
  exact payload_apply x0 x1 p q

end Cert.KernelIdeal.BlockProduct

end
-- ==== Proof.Spec.lean ====
/-
  The node projection as one function of whole arrays: `proj x W` is the matrix product `y = x · W` of the node
  features `x` (10000 nodes, 256 features each) with the weight matrix `W` (256 by 256), entry by entry on the extended
  reals: `y[n, j] = Σ_k x[n, k] · W[k, j]`. The kernel computes this array block by block; the reference never forms
  it, but its result is a sum of two of its rows plus the bias.
-/
import Idealize.ShloMosaic.Lib.ValueIdx

noncomputable section

open scoped BigOperators

namespace Cert.Spec

open Idealize.ShloMosaic Idealize.ShloMosaic.ValueIdx

/-- `y = x · W`: entry `(n, j)` is the inner product of row `n` of `x` with column `j` of `W`. -/
def proj (x : (⟨2, ![10000, 256]⟩ : Shape).Idx → EReal) (W : (⟨2, ![256, 256]⟩ : Shape).Idx → EReal) :
    (⟨2, ![10000, 256]⟩ : Shape).Idx → EReal :=
  fun i => ∑ k : Fin 256, x (ix2 (n0 := 10000) (n1 := 256) (i 0) k) * W (ix2 (n0 := 256) (n1 := 256) k (i 1))

/-- Read at `(n, j)`. -/
theorem proj_apply (x : (⟨2, ![10000, 256]⟩ : Shape).Idx → EReal) (W : (⟨2, ![256, 256]⟩ : Shape).Idx → EReal)
    (n : Fin 10000) (j : Fin 256) :
    proj x W (ix2 n j) = ∑ k : Fin 256, x (ix2 n k) * W (ix2 k j) := rfl

end Cert.Spec

end
-- ==== Proof.ProjectedArray.lean ====
/-
  The array the kernel's one region leaves behind. The grid has five points; point `t` fetches rows
  `2000·t … 2000·t + 1999` of `x` and all of `W`, and writes back the same rows of the output. What it writes back is
  the inner products of those rows with the columns of `W`, that is its block of the whole matrix product
  `proj x W`; the five row blocks tile the 10000 rows, so after the region the output array IS `proj x W`.
-/
import proofs.«159090_j75668733821114_2_alg».proof.Proof.Gen.KernelIdeal.Frame
import proofs.«159090_j75668733821114_2_alg».proof.Proof.BlockProduct
import proofs.«159090_j75668733821114_2_alg».proof.Proof.Spec
import Idealize.ShloMosaic.Lib.Pipeline.Value

set_option maxRecDepth 16384

noncomputable section

open scoped BigOperators

namespace Cert.KernelIdeal.ProjectedArray

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ)

/-- The body's rectangles start at the origin. -/
theorem zero_offsets : (![0, 0] : Fin 2 → Nat) = fun _ => 0 := funext fun a => by fin_cases a <;> rfl

/-- The printed index maps over the five grid points: the `x` window and the output window move together down the rows,
    point `t` at row block `t`; nothing moves along the columns, and `W` is always its one block. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- Inner products over a block are entries of the whole product: if the block's row `y 0` of `x` is row `i 0` of the
    array (position by position) and the block's column `y 1` of `W` is column `i 1`, the block's inner product is
    `proj x W` at `i`. Stated over plain arrays and embeddings `f`, `g` of block indices into array indices. -/
theorem block_sum (X : S10000x256.Idx → EReal) (Wm : S256x256.Idx → EReal) (f : S2000x256.Idx → S10000x256.Idx)
    (g : S256x256.Idx → S256x256.Idx) (i : S10000x256.Idx) (y : S2000x256.Idx)
    (hf : ∀ k : Fin 256, f (ix2 (n0 := 2000) (n1 := 256) (y 0) k) = ix2 (n0 := 10000) (n1 := 256) (i 0) k)
    (hg : ∀ k : Fin 256, g (ix2 (n0 := 256) (n1 := 256) k (y 1)) = ix2 (n0 := 256) (n1 := 256) k (i 1)) :
    ∑ k : Fin 256, X (f (ix2 (n0 := 2000) (n1 := 256) (y 0) k)) * Wm (g (ix2 (n0 := 256) (n1 := 256) k (y 1)))
      = Spec.proj X Wm i := by
  unfold Spec.proj
  exact Finset.sum_congr rfl fun k _ => by rw [hf, hg]

/-- WHAT POINT `t` WRITES BACK is block `t` of `proj x W`, for the arrays `x`, `W` as the region finds them. -/
theorem flushed_eq (c : Dev nD) (t : Fin cfg0.N) :
    (dats m 0 c).flushed 2 t
      = ((cfg0.win 2).blk t).view.read (Elt Ideal) (Spec.proj (V m c main_arg0) (V m c main_arg2)) := by
  show (cfg0.win 2).cut (grid0.coords t) ((dats m 0 c).after 2 t) = _
  rw [after0_2]
  unfold out0_2
  rw [View.canon_unit_zero zero_offsets]
  simp only [View.ld_unit_zero (S := S2000x256) zero_offsets, View.ld_unit_zero (S := S256x256) zero_offsets]
  obtain ⟨e0, e1, e2, e3, e4, e5⟩ := index_facts t
  funext j
  refine (BlockProduct.payload_at (iblk m c 0 t) (iblk m c 1 t) j).trans ?_
  refine block_sum (V m c main_arg0) (V m c main_arg2) ((cfg0.win 0).blk t).view.emb ((cfg0.win 1).blk t).view.emb
    (((cfg0.win 2).blk t).view.emb j) j (fun k => ?_) (fun k => ?_)
  · funext a; apply Fin.ext
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 256 + 1 * k.val = k.val
      omega
  · funext a; apply Fin.ext
    match a with
    | ⟨0, _⟩ =>
      show win0_1.index t (0 : Fin 2) * 256 + 1 * k.val = k.val
      omega
    | ⟨1, _⟩ =>
      show win0_1.index t (1 : Fin 2) * 256 + 1 * (j 1).val = win0_2.index t (1 : Fin 2) * 256 + 1 * (j 1).val
      omega

/-- An index of the output array is in point `t`'s block iff each coordinate is in the block's range on its axis. -/
theorem mem_blk (t : Fin cfg0.N) (i : S10000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v6).slice (win0_2.rect t)).set ↔ _
  rw [View.set_slice_whole, Rect.mem_set_unit]
  exact Iff.rfl

/-- THE COVER: row `r` of the output is in the block of point `r / 2000`, which writes back. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ : ∃ t : Fin cfg0.N, t.val = (i 0).val / 2000 :=
    ⟨⟨(i 0).val / 2000, by show _ < grid0.N; rw [N_0]; omega⟩, rfl⟩
  obtain ⟨e0, e1, e2, e3, e4, e5⟩ := index_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- THE OUTPUT ARRAY AFTER THE REGION is the whole matrix product of the argument arrays as launched. -/
theorem final (c : Dev nD) :
    (dats m 0 c).arrAt 2 cfg0.N
      = Spec.proj (m ((c : Thread nD τ).loc main_arg0)) (m ((c : Thread nD τ).loc main_arg2)) := by
  rw [(dats m 0 c).arrAt_eq_of_cover 2 (Spec.proj (V m c main_arg0) (V m c main_arg2))
    (fun t _ => flushed_eq m c t) cover, V_main_arg0, V_main_arg2]

end Cert.KernelIdeal.ProjectedArray

end
-- ==== Proof.KernelResult.lean ====
/-
  The kernel program's result as one function of its arguments. The lines after the region read four buffers: the
  region's output array, which is the matrix product `proj x W` (the five row blocks tile it); the two clipped index
  vectors, which the lines before the region computed from the rows of `edge_index` and which the region leaves
  alone; and the bias, an argument nothing writes. So every weakly fair execution ends with the result buffer at
  `tail (proj x W) (clip of row 0) (clip of row 1) b`, the arguments unchanged.
-/
import proofs.«159090_j75668733821114_2_alg».proof.Proof.HostTail
import proofs.«159090_j75668733821114_2_alg».proof.Proof.ProjectedArray

set_option maxRecDepth 16384

noncomputable section

namespace Cert.KernelIdeal.Result

open Cert.KernelIdeal Cert.KernelIdeal.Gen Cert.KernelIdeal.HostTail Idealize.ShloMosaic Idealize.ShloMosaic.TcCoe
open Idealize.SL.Sem Idealize.ShloMosaic.StableHlo

variable (m : (ℓ : Loc nD τ sig) → Buf (Elt Ideal) ℓ) (ρ : Dev nD → PrngReg)

/-- At the region's entry the first index vector is row 0 of `edge_index`, clipped. -/
theorem entry_v2 (c : Dev nD) :
    V0 m c (Proc.devRef .tc main_v2)
      = clipRow ![0, 0] slices_S2x320000_S1x320000_0_0 (m ((c : Thread nD τ).loc main_arg1)) := by
  dsimp only [V0]
  simp only [hostOps0, hostOps0_1, hostOps0_2, hostOps0_3, List.flatten_cons, List.flatten_nil, List.append_nil,
    List.cons_append, List.nil_append]
  after_results
  rfl

/-- And the second is row 1, clipped. -/
theorem entry_v5 (c : Dev nD) :
    V0 m c (Proc.devRef .tc main_v5)
      = clipRow ![1, 0] slices_S2x320000_S1x320000_1_0 (m ((c : Thread nD τ).loc main_arg1)) := by
  dsimp only [V0]
  simp only [hostOps0, hostOps0_1, hostOps0_2, hostOps0_3, List.flatten_cons, List.flatten_nil, List.append_nil,
    List.cons_append, List.nil_append]
  after_results
  rfl

/-- The region's output array at its exit is the matrix product of the arguments. -/
theorem exit_v6 (c : Dev nD) :
    exitVal m c (Proc.devRef .tc main_v6)
      = Spec.proj (m ((c : Thread nD τ).loc main_arg0)) (m ((c : Thread nD τ).loc main_arg2)) :=
  (Pipeline.withArrays_arr spec0 launch0.win.arr_inj c _ _ 2).trans (ProjectedArray.final m c)

/-- The region does not touch the index vectors … -/
theorem exit_v2 (c : Dev nD) :
    exitVal m c (Proc.devRef .tc main_v2)
      = clipRow ![0, 0] slices_S2x320000_S1x320000_0_0 (m ((c : Thread nD τ).loc main_arg1)) :=
  (Pipeline.withArrays_of_ne _ c (V0 m c) _ main_v2
    (by exact (by decide : ∀ w, Pipeline.arrRef spec0 w ≠ main_v2))).trans (entry_v2 m c)
theorem exit_v5 (c : Dev nD) :
    exitVal m c (Proc.devRef .tc main_v5)
      = clipRow ![1, 0] slices_S2x320000_S1x320000_1_0 (m ((c : Thread nD τ).loc main_arg1)) :=
  (Pipeline.withArrays_of_ne _ c (V0 m c) _ main_v5
    (by exact (by decide : ∀ w, Pipeline.arrRef spec0 w ≠ main_v5))).trans (entry_v5 m c)
/-- … nor the bias. -/
theorem exit_arg3 (c : Dev nD) :
    exitVal m c (Proc.devRef .tc main_arg3) = m ((c : Thread nD τ).loc main_arg3) :=
  (Pipeline.withArrays_of_ne _ c (V0 m c) _ main_arg3
    (by exact (by decide : ∀ w, Pipeline.arrRef spec0 w ≠ main_arg3))).trans (V_main_arg3 m c)

/-- THE RESULT BUFFER after the whole program, as a function of the arguments. -/
theorem value (c : Dev nD) :
    Pipeline.afterTail₀ cfgs (dats m) 0 (V0 m) [hostOps1] c main_v24
      = tail (Spec.proj (m ((c : Thread nD τ).loc main_arg0)) (m ((c : Thread nD τ).loc main_arg2)))
          (clipRow ![0, 0] slices_S2x320000_S1x320000_0_0 (m ((c : Thread nD τ).loc main_arg1)))
          (clipRow ![1, 0] slices_S2x320000_S1x320000_1_0 (m ((c : Thread nD τ).loc main_arg1)))
          (m ((c : Thread nD τ).loc main_arg3)) :=
  (tail_v24 m c).trans (by rw [exit_v6 m c, exit_v2 m c, exit_v5 m c, exit_arg3 m c])

/-- THE RUN: every weakly fair execution terminates with the result at that function and the arguments unchanged. -/
theorem run : θ_run defs (onTc (τ := τ) (main (F := Ideal))) ⟨m, fun _ => 0, ρ⟩ fun r => ∀ c : Dev nD,
      r.2.mem ((c.tc : Thread nD τ).loc main_v24)
        = tail (Spec.proj (m ((c : Thread nD τ).loc main_arg0)) (m ((c : Thread nD τ).loc main_arg2)))
            (clipRow ![0, 0] slices_S2x320000_S1x320000_0_0 (m ((c : Thread nD τ).loc main_arg1)))
            (clipRow ![1, 0] slices_S2x320000_S1x320000_1_0 (m ((c : Thread nD τ).loc main_arg1)))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.LibGatherRows.lean ====
/-
  A general lemma about `stablehlo.gather` taking whole ROWS of a matrix: what `x[idx]` lowers to for a rank-2 array
  `x : [N, D]` and a vector of row numbers, the start indices reshaped to a column `[E, 1]`. The dimension numbers are
  offset_dims `[1]`, collapsed_slice_dims `[0]`, start_index_map `[0]`, index_vector_dim `1`, slice_sizes `[1, D]`.
  The result element `(e, j)` is `x` at `(r, j)`, where the row `r` is the start index `idx[e, 0]` read as a signed
  integer and clamped into `[0, N − 1]` (StableHLO clamps every start index so that the slice fits): the row depends
  on `e` and on the index array only, and the column is carried over unchanged. For any extents and any element type.
-/
import Idealize.ShloMosaic.Lib.ValueIdx

noncomputable section

namespace Idealize.ShloMosaic.GatherRows

open Idealize.ShloMosaic Idealize.ShloMosaic.ValueIdx

variable {α : Type}

/-- The row-gather dimension numbers for an operand `[N, D]`, start indices `[E, 1]` and a result `[E, D]`; their
    conditions `wf` are decided on a program's literal shapes. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row of the operand that result row `e` reads: the start index `idx[e, 0]`, read signed and clamped into
    `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, j)`: the operand at `(rowOf idx e, j)`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowsDims N D E wf) x idx (ix2 e j) = x (ix2 (rowOf hN idx e) j) := by
  unfold Host.gather
  congr 1
  funext a
  refine Fin.ext ?_
  match a with
  | ⟨0, _⟩ =>
    show (rowsDims N D E wf).start (ix2 e j) idx 0 + (rowsDims N D E wf).batchCoord (ix2 e j) 0
      + (rowsDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e j) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e j) idx 1 + (rowsDims N D E wf).batchCoord (ix2 e j) 1
      + (rowsDims N D E wf).offCoord (ix2 e j) 1 = j.val
    rw [GatherDims.batchCoord_eq_zero _ _ _ List.not_mem_nil]
    unfold GatherDims.start
    rw [dif_neg (show ¬ (1 : Fin 2) ∈ (rowsDims N D E wf).startIndexMap from
      (by decide : ¬ (1 : Fin 2) ∈ ([0] : List (Fin 2))))]
    simp only [Nat.zero_add, Nat.add_zero]
    unfold GatherDims.offCoord
    rw [dif_pos ((GatherDims.mem_sKept _ _).mpr
      ⟨(by decide : ¬ (1 : Fin 2) ∈ ([0] : List (Fin 2))), List.not_mem_nil⟩)]
    rfl

end Idealize.ShloMosaic.GatherRows

end
-- ==== Proof.SumLaw.lean ====
/-
  The one algebraic law this certificate rests on. Projecting the sum of two rows equals the sum of the two projected
  rows: for every column, the inner product of `a + b` with `w` is the inner product of `a` with `w` plus that of `b`
  with `w`. On the extended reals a product does not distribute over a sum in general (`(+∞ + -∞) · w` is not
  `+∞ · w + -∞ · w`), so the law is stated for vectors all of whose entries are real numbers; then each term
  distributes in ℝ, and a finite sum of sums splits in any commutative monoid.
-/
import Idealize.ShloMosaic.PureOps.Ideal

noncomputable section

open scoped BigOperators

namespace Cert.SumLaw

/-- An extended real that is a real number. -/
def IsReal (x : EReal) : Prop := ∃ r : ℝ, x = (r : EReal)

/-- Termwise: with real entries, `(a + b) · w = a · w + b · w`. -/
theorem add_mul_of_real {a b w : EReal} (ha : IsReal a) (hb : IsReal b) (hw : IsReal w) :
    (a + b) * w = a * w + b * w := by
  obtain ⟨ra, rfl⟩ := ha
  obtain ⟨rb, rfl⟩ := hb
  obtain ⟨rw, rfl⟩ := hw
  rw [← EReal.coe_add, ← EReal.coe_mul, ← EReal.coe_mul, ← EReal.coe_mul, ← EReal.coe_add, add_mul]

/-- THE LAW: the inner product with `w` is additive on vectors with real entries. -/
theorem sum_add_mul {ι : Type*} [Fintype ι] (a b w : ι → EReal) (ha : ∀ k, IsReal (a k)) (hb : ∀ k, IsReal (b k))
    (hw : ∀ k, IsReal (w k)) :
    ∑ k, (a k + b k) * w k = ∑ k, a k * w k + ∑ k, b k * w k := by
  rw [← Finset.sum_add_distrib]
  exact Finset.sum_congr rfl fun k _ => add_mul_of_real (ha k) (hb k) (hw k)

end Cert.SumLaw

end
-- ==== Proof.Bridge.lean ====
/-
  The two results are one function of the arguments. Write `r(e)`, `c(e)` for the rows the two gathers read at edge `e`
  (each a function of its index array only), `y = x · W` for the projected nodes, `B` for the broadcast bias. The kernel
  ends with `y[r(e), j] + y[c(e), j] + B[e, j]`; the reference with `Σ_k (x[r(e), k] + x[c(e), k]) · W[k, j] + B[e, j]`.
  Since gathering rows only selects a row and keeps the column, both are sums over the 256 contracted positions of
  entries of `x` and `W`, and they agree by the additivity of the inner product (real entries: `SumLaw`). The index
  arrays stay abstract here: whatever integers they hold, both sides read the same rows.
-/
import proofs.«159090_j75668733821114_2_alg».proof.Proof.Gen.ReferenceIdeal.Read
import proofs.«159090_j75668733821114_2_alg».proof.Proof.LibGatherRows
import proofs.«159090_j75668733821114_2_alg».proof.Proof.SumLaw
import proofs.«159090_j75668733821114_2_alg».proof.Proof.Spec

noncomputable section

open scoped BigOperators

namespace Cert.Bridge

open Cert.ReferenceIdeal Cert.ReferenceIdeal.Gen Cert.ReferenceIdeal.Read
open Idealize.ShloMosaic Idealize.ShloMosaic.ValueIdx Idealize.ShloMosaic.GatherRows Cert.SumLaw

/-- The table of nodes has a row. -/
theorem rows_pos : 0 < 10000 := by decide

/-- The printed gather is the row gather: at `(e, j)` it reads row `rowOf I e`, column `j`. -/
theorem gather_apply (x : FVec Ideal S10000x256 .f32) (I : IVec S320000x1 32) (e : Fin 320000) (j : Fin 256) :
    Host.gather gather_S10000x256_S320000x1_S320000x256_1_0_n_n_0_1_1256 x I (ix2 e j)
      = x (ix2 (rowOf rows_pos I e) j) :=
  gather_rows_apply rows_pos gather_S10000x256_S320000x1_S320000x256_1_0_n_n_0_1_1256.wf x I e j

/-- The host's `dot_general` of ANY left operand `L` with `W`, read at `(e, j)`: the inner product of row `e` of `L`
    with column `j` of `W`. -/
theorem dot_apply (L : FVec Ideal S320000x256 .f32) (W : FVec Ideal S256x256 .f32) (e : Fin 320000) (j : Fin 256) :
    Host.dotGeneral dot_S320000x256_S256x256_S320000x256_1_0_0_1_n_n none L W (ix2 e j)
      = ∑ k : Fin 256, L (ix2 e k) * W (ix2 k j) := by
  simp only [Host.dotGeneral]
  rw [Ideal.dotGeneral_apply,
    ← Equiv.sum_comp (contrEquiv1 dot_S320000x256_S256x256_S320000x256_1_0_0_1_n_n 256 rfl rfl).symm]
  refine Finset.sum_congr rfl fun k _ => ?_
  have hk := contrEquiv1_symm_val dot_S320000x256_S256x256_S320000x256_1_0_0_1_n_n 256 rfl rfl k
  have el : dot_S320000x256_S256x256_S320000x256_1_0_0_1_n_n.lhsIdx (ix2 e j)
      ((contrEquiv1 dot_S320000x256_S256x256_S320000x256_1_0_0_1_n_n 256 rfl rfl).symm k) = ix2 e k :=
    funext fun a => Fin.ext (by
      match a with
      | ⟨0, _⟩ => exact lhs_main_v21_0 _ _
      | ⟨1, _⟩ => exact (lhs_main_v21_1 _ _).trans hk)
  have er : dot_S320000x256_S256x256_S320000x256_1_0_0_1_n_n.rhsIdx (ix2 e j)
      ((contrEquiv1 dot_S320000x256_S256x256_S320000x256_1_0_0_1_n_n 256 rfl rfl).symm k) = ix2 k j :=
    funext fun a => Fin.ext (by
      match a with
      | ⟨0, _⟩ => exact (rhs_main_v21_0 _ _).trans hk
      | ⟨1, _⟩ => exact rhs_main_v21_1 _ _)
  rw [el, er]

/-- THE BRIDGE: gathering two rows of the projected nodes and adding them (the kernel) is projecting the sum of the two
    gathered rows (the reference), the bias added last on both sides — for any index arrays, when the entries of `x`
    and `W` are reals. -/
theorem result_eq (x : FVec Ideal S10000x256 .f32) (W : FVec Ideal S256x256 .f32) (B : FVec Ideal S320000x256 .f32)
    (I0 I1 : IVec S320000x1 32) (hx : ∀ i, IsReal (x i)) (hW : ∀ i, IsReal (W i)) :
    addf (addf (Host.gather gather_S10000x256_S320000x1_S320000x256_1_0_n_n_0_1_1256 (Spec.proj x W) I0)
        (Host.gather gather_S10000x256_S320000x1_S320000x256_1_0_n_n_0_1_1256 (Spec.proj x W) I1)) B
      = addf (Host.dotGeneral dot_S320000x256_S256x256_S320000x256_1_0_0_1_n_n none
          (addf (Host.gather gather_S10000x256_S320000x1_S320000x256_1_0_n_n_0_1_1256 x I0)
            (Host.gather gather_S10000x256_S320000x1_S320000x256_1_0_n_n_0_1_1256 x I1)) W) B := by
  funext i
  obtain ⟨e, j, rfl⟩ : ∃ (e : Fin 320000) (j : Fin 256), i = ix2 e j := ⟨i 0, i 1, eq_ix2 i⟩
  show (Host.gather gather_S10000x256_S320000x1_S320000x256_1_0_n_n_0_1_1256 (Spec.proj x W) I0 (ix2 e j)
        + Host.gather gather_S10000x256_S320000x1_S320000x256_1_0_n_n_0_1_1256 (Spec.proj x W) I1 (ix2 e j))
        + B (ix2 e j)
      = Host.dotGeneral dot_S320000x256_S256x256_S320000x256_1_0_0_1_n_n none
          (addf (Host.gather gather_S10000x256_S320000x1_S320000x256_1_0_n_n_0_1_1256 x I0)
            (Host.gather gather_S10000x256_S320000x1_S320000x256_1_0_n_n_0_1_1256 x I1)) W (ix2 e j)
        + B (ix2 e j)
  congr 1
  rw [gather_apply, gather_apply, Spec.proj_apply, Spec.proj_apply, dot_apply]
  symm
  refine (Finset.sum_congr rfl fun k _ => ?_).trans
    (sum_add_mul (fun k => x (ix2 (rowOf rows_pos I0 e) k)) (fun k => x (ix2 (rowOf rows_pos I1 e) k))
      (fun k => W (ix2 k j)) (fun k => hx _) (fun k => hx _) (fun k => hW _))
  show (Host.gather gather_S10000x256_S320000x1_S320000x256_1_0_n_n_0_1_1256 x I0 (ix2 e k)
      + Host.gather gather_S10000x256_S320000x1_S320000x256_1_0_n_n_0_1_1256 x I1 (ix2 e k)) * W (ix2 k j) = _
  rw [gather_apply, gather_apply]

end Cert.Bridge

end
-- ==== Proof.Finite.lean ====
/-
  What the precondition gives: every entry of the node features `x` and of the weight matrix `W` is a real number.
  The precondition is the conjunction of three `jnp.all(|a| < +∞)` tests, one per float input; each is a reduction by
  `and` of the elementwise comparisons, and it is 1 only if every comparison is 1. At an entry, `|a| < +∞` on the
  extended reals excludes both infinities (`|±∞| = +∞`), so the entry is a real.
-/
import proofs.«159090_j75668733821114_2_alg».proof.Proof.Gen.Pre_finite_inputs
import proofs.«159090_j75668733821114_2_alg».proof.Proof.SumLaw
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen Cert.SumLaw

/-- The word the tests compare against is `+∞`. -/
theorem inf_word : Ideal.ofBits .f32 0x7F800000#32 = (⊤ : EReal) := by simp [Ideal.ofBits, Ideal.ieee]

/-- An extended real whose absolute value is below `+∞` is a real number. -/
theorem isReal_of_abs_lt_top (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- The scalar shape has one index. -/
instance : Subsingleton S_.Idx := ⟨fun a b => funext fun d => d.elim0⟩

/-- FROM THE PRECONDITION: all entries of `x` and of `W` are reals. -/
theorem real_of_pre (a0 : FVec Ideal S10000x256 .f32) (a1 : IVec S2x320000 32) (a2 : FVec Ideal S256x256 .f32)
    (a3 : FVec Ideal S256 .f32) (h : Cert.Pre_finite_inputs.fn (F := Ideal) a0 a1 a2 a3 = fun _ => 1#1) :
    (∀ i, IsReal (a0 i)) ∧ (∀ i, IsReal (a2 i)) := by
  have h0 := congrFun h ValueIdx.ix0
  dsimp only [Cert.Pre_finite_inputs.fn] at h0
  obtain ⟨h01, -⟩ := IntOp.andi_eq_one.1 h0
  obtain ⟨hx, hW⟩ := IntOp.andi_eq_one.1 h01
  refine ⟨fun i => ?_, fun i => ?_⟩
  · have e := Host.reduce_andi_all _ _ _ _ _ hx i
    refine isReal_of_abs_lt_top (a0 i) ?_
    rw [← inf_word]
    exact e
  · have e := Host.reduce_andi_all _ _ _ _ _ hW i
    refine isReal_of_abs_lt_top (a2 i) ?_
    rw [← inf_word]
    exact e

end Cert.Finite

end
-- ==== Proof.lean ====
/- The proof of `Cert.Claim`: a graph convolution's edge projection computed two ways.
   Both programs clip the two rows of `edge_index` into `[0, 9999]` and read the node features `x` (10000 by 256)
   through them. The reference gathers the two endpoint rows of `x` for every edge, adds them, multiplies by `W` and
   adds the bias: `out[e, j] = Σ_k (x[r(e), k] + x[c(e), k]) · W[k, j] + b[j]`. The kernel first projects every node,
   `y = x · W`, in five row blocks on the matrix unit, and then gathers and adds rows of `y`:
   `out[e, j] = y[r(e), j] + y[c(e), j] + b[j]`. On the extended reals the two agree because the inner product with a
   column of `W` is additive, which needs the entries of `x` and `W` to be real numbers: that is what the precondition
   says. The format changes to bf16 are the identity at the ideal values and the ideal pass rewrote nothing, so
   `preserves` is trivial; the three frames are the generated frame runs (the reference's is its generated run with
   the result dropped). -/
import proofs.«159090_j75668733821114_2_alg».proof.Defs
import proofs.«159090_j75668733821114_2_alg».proof.Proof.Gen.Kernel
import proofs.«159090_j75668733821114_2_alg».proof.Proof.Gen.Kernel.Skeleton
import proofs.«159090_j75668733821114_2_alg».proof.Proof.Gen.Kernel.Launch
import proofs.«159090_j75668733821114_2_alg».proof.Proof.Gen.Kernel.Points
import proofs.«159090_j75668733821114_2_alg».proof.Proof.Gen.Kernel.Frame
import proofs.«159090_j75668733821114_2_alg».proof.Proof.Gen.KernelIdeal
import proofs.«159090_j75668733821114_2_alg».proof.Proof.Gen.KernelIdeal.Skeleton
import proofs.«159090_j75668733821114_2_alg».proof.Proof.Gen.KernelIdeal.Launch
import proofs.«159090_j75668733821114_2_alg».proof.Proof.Gen.KernelIdeal.Points
import proofs.«159090_j75668733821114_2_alg».proof.Proof.Gen.KernelIdeal.Frame
import proofs.«159090_j75668733821114_2_alg».proof.Proof.Gen.ReferenceIdeal
import proofs.«159090_j75668733821114_2_alg».proof.Proof.Gen.Pre_finite_inputs
import proofs.«159090_j75668733821114_2_alg».proof.Proof.Gen.ReferenceIdeal.Run
import proofs.«159090_j75668733821114_2_alg».proof.Proof.Gen.ReferenceIdeal.Read
import proofs.«159090_j75668733821114_2_alg».proof.Proof.KernelResult
import proofs.«159090_j75668733821114_2_alg».proof.Proof.Bridge
import proofs.«159090_j75668733821114_2_alg».proof.Proof.Finite
import Idealize.ShloMosaic.Adequacy
import Idealize.ShloMosaic.Init

set_option maxRecDepth 16384

noncomputable section

namespace Cert.Proof

open Idealize.ShloMosaic Idealize.SL.Sem Cert.SumLaw

/-- The kernel's result function is the reference's: the host tail applied to the projected nodes and the two clipped
    rows of `edge_index` is the reference's last stage, when the entries of `x` and `W` are reals. The index
    computations are the same operations on both sides, so only the bridge's law is used. -/
theorem kernel_is_reference (x : FVec Ideal Cert.ReferenceIdeal.S10000x256 .f32) (ei : IVec Cert.ReferenceIdeal.S2x320000 32)
    (W : FVec Ideal Cert.ReferenceIdeal.S256x256 .f32) (b : FVec Ideal Cert.ReferenceIdeal.S256 .f32)
    (hx : ∀ i, IsReal (x i)) (hW : ∀ i, IsReal (W i)) :
    Cert.KernelIdeal.HostTail.tail (Cert.Spec.proj x W)
        (Cert.KernelIdeal.HostTail.clipRow ![0, 0] Cert.KernelIdeal.Facts₀.slices_S2x320000_S1x320000_0_0 ei)
        (Cert.KernelIdeal.HostTail.clipRow ![1, 0] Cert.KernelIdeal.Facts₀.slices_S2x320000_S1x320000_1_0 ei) b
      = Cert.ReferenceIdeal.Read.val_main_v24 (F := Ideal) x ei W b :=
  Cert.Bridge.result_eq x W (Cert.ReferenceIdeal.Read.val_main_v23 (F := Ideal) b)
    (Cert.ReferenceIdeal.Read.val_main_v11 (F := Ideal) ei) (Cert.ReferenceIdeal.Read.val_main_v18 (F := Ideal) ei) hx hW

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values both programs end with the reference's last stage of the (agreeing) arguments: the kernel's
    run by `kernel_is_reference` under the precondition, the reference's by its generated run. -/
theorem algebraic : Cert.algebraic_KernelIdeal_ReferenceIdeal := by
  intro m ρ m' ρ' hpre hagree
  have hfin := fun c => Cert.Finite.real_of_pre _ _ _ _ (hpre c)
  refine ⟨fun c => Cert.ReferenceIdeal.Read.val_main_v24 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (kernel_is_reference _ _ _ _ (hfin c).1 (hfin c).2), (h c).2⟩)
      (Cert.KernelIdeal.Result.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v24_eq, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
